-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x32768 : Shape := ⟨2, ![4096, 32768]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_

variable [Facts]

def fn {F : FTy → Type} [FloatOps F] (main_arg0 : FVec F S4096x4096 .f32) (main_arg1 : FVec F S4096x32768 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  main_v8
-- ==== Kernel.lean ====
abbrev S4096x4096 : Shape := ⟨2, ![4096, 4096]⟩
abbrev S4096x32768 : Shape := ⟨2, ![4096, 32768]⟩
abbrev S_ : Shape := ⟨0, ![]⟩
abbrev S4096 : Shape := ⟨1, ![4096]⟩
abbrev S4096x1 : Shape := ⟨2, ![4096, 1]⟩
abbrev S32768 : Shape := ⟨1, ![32768]⟩
abbrev S1x32768 : Shape := ⟨2, ![1, 32768]⟩
abbrev S1024x4096 : Shape := ⟨2, ![1024, 4096]⟩
abbrev S4096x256 : Shape := ⟨2, ![4096, 256]⟩
abbrev S1024x1 : Shape := ⟨2, ![1024, 1]⟩
abbrev S1x256 : Shape := ⟨2, ![1, 256]⟩
abbrev S1024x256 : Shape := ⟨2, ![1024, 256]⟩

abbrev nBuf : Space → Nat
  | .hbm => 27
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x32768, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x32768, .f32⟩
  | .hbm, ⟨14, _⟩ => ⟨S_, .f32⟩
  | .hbm, ⟨15, _⟩ => ⟨S32768, .f32⟩
  | .hbm, ⟨16, _⟩ => ⟨S1x32768, .f32⟩
  | .hbm, ⟨17, _⟩ => ⟨S1x32768, .f32⟩
  | .hbm, ⟨18, _⟩ => ⟨S_, .f32⟩
  | .hbm, ⟨19, _⟩ => ⟨S1x32768, .f32⟩
  | .hbm, ⟨20, _⟩ => ⟨S1x32768, .f32⟩
  | .hbm, ⟨21, _⟩ => ⟨S_, .f32⟩
  | .hbm, ⟨22, _⟩ => ⟨S1x32768, .f32⟩
  | .hbm, ⟨23, _⟩ => ⟨S1x32768, .f32⟩
  | .hbm, ⟨24, _⟩ => ⟨S4096x4096, .bf16⟩
  | .hbm, ⟨25, _⟩ => ⟨S4096x32768, .bf16⟩
  | .hbm, ⟨26, _⟩ => ⟨S4096x32768, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x1, .f32⟩
  | .local _ .vmem, ⟨5, _⟩ => ⟨S1024x1, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x32768_S32768_d0 : S4096x32768.ReducesTo [0] S32768
  bcast_S32768_S1x32768_1 : S32768.BroadcastsInDim S1x32768 (![1] : Fin 1 → Fin S1x32768.rank)
  bcast_S_S1x32768 : S_.BroadcastsInDim S1x32768 (![] : Fin 0 → Fin S1x32768.rank)
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x32768.size a
  hwx0_1 : ∀ i : grid0.Coords, EltTy.bits .bf16 = 32 ∨ (Rect.block (s := S4096x32768) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x32768.size a
  hwx0_3 : ∀ i : grid0.Coords, EltTy.bits .f32 = 32 ∨ (Rect.block (s := S1x32768) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x32768.size a
  hwx0_4 : ∀ i : grid0.Coords, EltTy.bits .f32 = 32 ∨ (Rect.block (s := S4096x32768) S1024x256.size (cc0_transform_4 i) (hinb0_4 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_v16) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x32768 : Shape := ⟨2, ![4096, 32768]⟩
abbrev S_ : Shape := ⟨0, ![]⟩
abbrev S4096 : Shape := ⟨1, ![4096]⟩
abbrev S32768 : Shape := ⟨1, ![32768]⟩
abbrev S4096x1 : Shape := ⟨2, ![4096, 1]⟩
abbrev S1x32768 : Shape := ⟨2, ![1, 32768]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x32768, .f32⟩
  | .hbm, ⟨2, _⟩ => ⟨S4096x32768, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S4096x1, .f32⟩
  | .hbm, ⟨18, _⟩ => ⟨S1x32768, .f32⟩
  | .hbm, ⟨19, _⟩ => ⟨S4096x32768, .f32⟩
  | .hbm, ⟨20, _⟩ => ⟨S4096x32768, .f32⟩
  | .hbm, ⟨21, _⟩ => ⟨S4096x32768, .f32⟩
  | .hbm, ⟨22, _⟩ => ⟨S4096x32768, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  reducesTo_S4096x32768_S32768_d0 : S4096x32768.ReducesTo [0] S32768
  bcast_S_S32768 : S_.BroadcastsInDim S32768 (![] : Fin 0 → Fin S32768.rank)
  bcast_S4096_S4096x1_0 : S4096.BroadcastsInDim S4096x1 (![0] : Fin 1 → Fin S4096x1.rank)
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  dot_S4096x4096_S4096x32768_S4096x32768_1_0_0_1_n_n_wf : DotDims.WF S4096x4096 S4096x32768 S4096x32768 [1] [0] [0] [1] [] []

variable [Facts₀]

def dot_S4096x4096_S4096x32768_S4096x32768_1_0_0_1_n_n : DotDims S4096x4096 S4096x32768 S4096x32768 where
  lhsContracting := [1]
  rhsContracting := [0]
  lhsNonContracting := [0]
  rhsNonContracting := [1]
  lhsBatch := []
  rhsBatch := []
  wf := dot_S4096x4096_S4096x32768_S4096x32768_1_0_0_1_n_n_wf

class Facts : Prop extends Facts₀ where

variable [Facts]
-- ==== Proof.LibCosineLaw.lean ====
/-
  The one algebraic law behind the cosine similarity, on the extended reals.

  With a = max s e and b = max t e for a positive clamp e, both a and b are positive, hence nonzero, whatever s and t
  are (infinite, negative or junk included). Dividing by a nonzero c is multiplying by c⁻¹ (the inverse of either
  infinity being 0), and (a · b)⁻¹ = a⁻¹ · b⁻¹ on the extended reals (for two reals this is the field law, and if either is
  infinite both sides are 0). So for EVERY extended real d

      d · (1 / a) · (1 / b) = d / (a · b),

  with no finiteness assumed of d, s or t: the law only re-associates a product.
-/
import Idealize.ShloMosaic.PureOps.Ideal

noncomputable section

namespace Cert.Cosine

open Idealize.ShloMosaic

/-- The host's square root of an array, read at an index, is the extended-real square root of the entry. -/
theorem hostSqrt_apply {s : Shape} {φ : FTy} (a : FVec Ideal s φ) (i : s.Idx) : Host.sqrt (F := Ideal) a i = Ideal.sqrt (a i) := rfl

/-- The clamp: the f32 pattern 0x322BCC77 (the nearest f32 to 1e-8). -/
abbrev clamp : EReal := Ideal.ofBits .f32 0x322BCC77#32

/-- The clamp's pattern has sign bit 0, exponent field 100 and fraction field 0x2BCC77: a positive normal number. -/
theorem clamp_pos : (0 : EReal) < clamp := by
  have h : clamp = (((1 : ℝ) * ((2 ^ 23 + 2870391 : Nat) : ℝ) * (2 : ℝ) ^ ((100 : Int) - 127 - 23) : ℝ) : EReal) := by
    unfold clamp Ideal.ofBits Ideal.ieee
    have e1 : (BitVec.extractLsb' (8 + 23) 1 (0x322BCC77#32) == 1#1) = false := by decide
    have e2 : (BitVec.extractLsb' 23 8 (0x322BCC77#32)).toNat = 100 := by decide
    have e3 : (BitVec.extractLsb' 0 23 (0x322BCC77#32)).toNat = 2870391 := by decide
    simp only [e1, e2, e3]
    norm_num
  rw [h]
  exact_mod_cast (by positivity : (0 : ℝ) < (1 : ℝ) * ((2 ^ 23 + 2870391 : Nat) : ℝ) * (2 : ℝ) ^ ((100 : Int) - 127 - 23))

/-- d · (1 / a) · (1 / b) = d / (a · b) for positive a and b and every d. -/
theorem mul_recip_recip (d : EReal) {a b : EReal} (ha : 0 < a) (hb : 0 < b) :
    d * Ideal.div 1 a * Ideal.div 1 b = Ideal.div d (a * b) := by
  have hab : 0 < a * b := EReal.mul_pos ha hb
  unfold Ideal.div
  rw [if_neg ha.ne', if_neg hb.ne', if_neg hab.ne', one_mul, one_mul, EReal.mul_inv, mul_assoc]

/-- The same with the two clamped norms: max s e and max t e are positive because e is. -/
theorem cosine_law (d s t : EReal) :
    d * Ideal.div 1 (max s clamp) * Ideal.div 1 (max t clamp) = Ideal.div d (max s clamp * max t clamp) :=
  mul_recip_recip d (lt_of_lt_of_le clamp_pos (le_max_right s clamp)) (lt_of_lt_of_le clamp_pos (le_max_right t clamp))

end Cert.Cosine

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.KernelHost.lean ====
/-
  What the kernel's region finds in the four arrays its input windows read, index by index.

  Before the region the host computes, from the arguments x and w: the two arrays rounded to bf16 (the identity on the extended
  reals), the column 1 / max(√(row sums of squares of x), e) of shape [4096, 1], and the row 1 / max(√(column sums of squares of w), e)
  of shape [1, 32768]. The sums of squares stay one opaque array each.
-/
import proofs.«172707_j54425825575210_2_alg».proof.Proof.Gen.KernelIdeal.Frame
import proofs.«172707_j54425825575210_2_alg».proof.Proof.LibCosineLaw
import proofs.«172707_j54425825575210_2_alg».proof.Proof.LibBroadcastInDim2
import Idealize.ShloMosaic.Lib.ValueIdx
import Idealize.ShloMosaic.Lib.IdealHost
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The argument x on core c. -/
abbrev argX (c : Dev nD) : FVec Ideal S4096x4096 .f32 := m ((c : Thread nD τ).loc main_arg0)
/-- The argument w on core c. -/
abbrev argW (c : Dev nD) : FVec Ideal S4096x32768 .f32 := m ((c : Thread nD τ).loc main_arg1)

/-- The sums of squares of the rows of x, as the host computes them before the region. -/
abbrev rowSq (c : Dev nD) : FVec Ideal S4096 .f32 :=
  Host.reduceAdd (F := Ideal) (mulf (argX m c) (argX m c)) (constant (F := Ideal) S_ .f32 0x00000000#32) reducesTo_S4096x4096_S4096_d1 h_S_

/-- The sums of squares of the columns of w, as the host computes them before the region. -/
abbrev colSq (c : Dev nD) : FVec Ideal S32768 .f32 :=
  Host.reduceAdd (F := Ideal) (mulf (argW m c) (argW m c)) (constant (F := Ideal) S_ .f32 0x00000000#32) reducesTo_S4096x32768_S32768_d0 h_S_

/-- The left operand's array is x rounded to bf16. -/
theorem lhs_eq (c : Dev nD) : (V m c main_v16 : S4096x4096.Idx → EReal) = truncf (F := Ideal) .bf16 (argX m c) bitsLt_bf16_f32 := by
  dsimp only [Gen.V, Gen.hostOps0]; after_results

/-- The right operand's array is w rounded to bf16. -/
theorem rhs_eq (c : Dev nD) : (V m c main_v17 : S4096x32768.Idx → EReal) = truncf (F := Ideal) .bf16 (argW m c) bitsLt_bf16_f32 := by
  dsimp only [Gen.V, Gen.hostOps0]; after_results

/-- The column of reciprocal row norms. -/
theorem invRow_eq (c : Dev nD) : (V m c main_v7 : S4096x1.Idx → EReal) =
    Host.divf (F := Ideal) (broadcastInDim S4096x1 ![] bcast_S_S4096x1 (constant (F := Ideal) S_ .f32 0x3F800000#32))
      (maximumf (Host.sqrt (F := Ideal) (broadcastInDim S4096x1 ![0] bcast_S4096_S4096x1_0 (rowSq m c)))
        (broadcastInDim S4096x1 ![] bcast_S_S4096x1 (constant (F := Ideal) S_ .f32 0x322BCC77#32))) := by
  dsimp only [Gen.V, Gen.hostOps0]; after_results

/-- The row of reciprocal column norms. -/
theorem invCol_eq (c : Dev nD) : (V m c main_v15 : S1x32768.Idx → EReal) =
    Host.divf (F := Ideal) (broadcastInDim S1x32768 ![] bcast_S_S1x32768 (constant (F := Ideal) S_ .f32 0x3F800000#32))
      (maximumf (Host.sqrt (F := Ideal) (broadcastInDim S1x32768 ![1] bcast_S32768_S1x32768_1 (colSq m c)))
        (broadcastInDim S1x32768 ![] bcast_S_S1x32768 (constant (F := Ideal) S_ .f32 0x322BCC77#32))) := by
  dsimp only [Gen.V, Gen.hostOps0]; after_results

/-- Entry (P, k) of the left operand's array is x at (P, k): rounding to bf16 is the identity on the extended reals. -/
theorem lhs_apply (c : Dev nD) (P k : Fin 4096) : (V m c main_v16 : S4096x4096.Idx → EReal) (ix2 P k) = argX m c (ix2 P k) :=
  congrFun (lhs_eq m c) (ix2 P k)

/-- Entry (k, Q) of the right operand's array is w at (k, Q). -/
theorem rhs_apply (c : Dev nD) (k : Fin 4096) (Q : Fin 32768) : (V m c main_v17 : S4096x32768.Idx → EReal) (ix2 k Q) = argW m c (ix2 k Q) :=
  congrFun (rhs_eq m c) (ix2 k Q)

/-- Entry (P, 0) of the column of reciprocal row norms. -/
theorem invRow_apply (c : Dev nD) (P : Fin 4096) :
    (V m c main_v7 : S4096x1.Idx → EReal) (ix2 P (0 : Fin 1)) = Ideal.div 1 (max (Ideal.sqrt (rowSq m c (ix1 P))) Cert.Cosine.clamp) := by
  rw [invRow_eq, hostDivf_apply, maximumf_apply, broadcastInDim_scalar_apply, broadcastInDim_scalar_apply,
    Cert.Cosine.hostSqrt_apply, constant_apply, constant_apply, Ideal.ofBits_one_f32, BroadcastInDim2.vecToCol_apply]

/-- Entry (0, Q) of the row of reciprocal column norms. -/
theorem invCol_apply (c : Dev nD) (Q : Fin 32768) :
    (V m c main_v15 : S1x32768.Idx → EReal) (ix2 (0 : Fin 1) Q) = Ideal.div 1 (max (Ideal.sqrt (colSq m c (ix1 Q))) Cert.Cosine.clamp) := by
  rw [invCol_eq, hostDivf_apply, maximumf_apply, broadcastInDim_scalar_apply, broadcastInDim_scalar_apply,
    Cert.Cosine.hostSqrt_apply, constant_apply, constant_apply, Ideal.ofBits_one_f32, BroadcastInDim2.vecToRow_apply]

end Cert.KernelIdeal.Entry

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.CosineSpec.lean ====
/-
  The cosine similarity of every row of x with every column of w, as ONE function of the arrays, index by index.

  With d(P, Q) = Σ_k x(P, k) · w(k, Q), a(P) = max(√(sx P), e) and b(Q) = max(√(sw Q), e) — sx P and sw Q standing for the
  sums of squares of row P of x and of column Q of w, e for the positive clamp — the entry at (P, Q) is

      d(P, Q) · (1 / a(P)) · (1 / b(Q)).

  The sums of squares enter as arrays sx, sw of their own: both programs compute them by the same host reduction of the same
  products, so nothing here ever opens that reduction.
-/
import Idealize.ShloMosaic.PureOps.Ideal
import Idealize.ShloMosaic.Lib.ValueIdx
import proofs.«172707_j54425825575210_2_alg».proof.Proof.LibCosineLaw

noncomputable section

open scoped BigOperators

namespace Cert.Cosine

open Idealize.ShloMosaic Idealize.ShloMosaic.ValueIdx

/-- The entry at row P and column Q: the dot product times the two reciprocal clamped norms. -/
def entry (x : (⟨2, ![4096, 4096]⟩ : Shape).Idx → EReal) (w : (⟨2, ![4096, 32768]⟩ : Shape).Idx → EReal)
    (sx : (⟨1, ![4096]⟩ : Shape).Idx → EReal) (sw : (⟨1, ![32768]⟩ : Shape).Idx → EReal) (P : Fin 4096) (Q : Fin 32768) : EReal :=
  (∑ k : Fin 4096, x (ix2 P k) * w (ix2 k Q)) * Ideal.div 1 (max (Ideal.sqrt (sx (ix1 P))) clamp)
    * Ideal.div 1 (max (Ideal.sqrt (sw (ix1 Q))) clamp)

/-- The whole [4096, 32768] array of entries. -/
def similarity (x : (⟨2, ![4096, 4096]⟩ : Shape).Idx → EReal) (w : (⟨2, ![4096, 32768]⟩ : Shape).Idx → EReal)
    (sx : (⟨1, ![4096]⟩ : Shape).Idx → EReal) (sw : (⟨1, ![32768]⟩ : Shape).Idx → EReal) :
    (⟨2, ![4096, 32768]⟩ : Shape).Idx → EReal :=
  fun I => entry x w sx sw (I 0) (I 1)

theorem similarity_apply (x : (⟨2, ![4096, 4096]⟩ : Shape).Idx → EReal) (w : (⟨2, ![4096, 32768]⟩ : Shape).Idx → EReal)
    (sx : (⟨1, ![4096]⟩ : Shape).Idx → EReal) (sw : (⟨1, ![32768]⟩ : Shape).Idx → EReal) (P : Fin 4096) (Q : Fin 32768) :
    similarity x w sx sw (ix2 P Q) = entry x w sx sw P Q := rfl

/-- The same entry as ONE quotient by the product of the two clamped norms: the reciprocal law for positive divisors. -/
theorem entry_eq_quotient (x : (⟨2, ![4096, 4096]⟩ : Shape).Idx → EReal) (w : (⟨2, ![4096, 32768]⟩ : Shape).Idx → EReal)
    (sx : (⟨1, ![4096]⟩ : Shape).Idx → EReal) (sw : (⟨1, ![32768]⟩ : Shape).Idx → EReal) (P : Fin 4096) (Q : Fin 32768) :
    entry x w sx sw P Q = Ideal.div (∑ k : Fin 4096, x (ix2 P k) * w (ix2 k Q))
      (max (Ideal.sqrt (sx (ix1 P))) clamp * max (Ideal.sqrt (sw (ix1 Q))) clamp) :=
  cosine_law _ _ _

end Cert.Cosine

end
-- ==== Proof.TileValue.lean ====
/-
  The kernel body's one stored value, read at an entry of the [1024, 256] output block.

  The body multiplies the [1024, 4096] block of x by the [4096, 256] block of w into a zero accumulator, then scales by the
  [1024, 1] column of reciprocal row norms broadcast along the columns and by the [1, 256] row of reciprocal column norms
  broadcast along the rows. At (p, q) that is (Σ_k X(p, k) · W(k, q)) · r(p, 0) · s(0, q).
-/
import proofs.«172707_j54425825575210_2_alg».proof.Proof.Gen.KernelIdeal.Skeleton
import proofs.«172707_j54425825575210_2_alg».proof.Proof.LibPlainDot
import proofs.«172707_j54425825575210_2_alg».proof.Proof.LibRank2Layout
import proofs.«172707_j54425825575210_2_alg».proof.Proof.CosineSpec
import Idealize.ShloMosaic.Lib.ValueIdx
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The stored value at (p, q) of the block. -/
theorem value_apply (x0 : FVec Ideal S1024x4096 .bf16) (x1 : FVec Ideal S4096x256 .bf16) (x2 : FVec Ideal S1024x1 .f32)
    (x3 : FVec Ideal S1x256 .f32) (p : Fin 1024) (q : Fin 256) :
    k0_pay1 (F := Ideal) x0 x1 x2 x3 (ix2 p q)
      = (∑ k : Fin 4096, x0 (ix2 p k) * x1 (ix2 k q)) * x2 (ix2 p (0 : Fin 1)) * x3 (ix2 (0 : Fin 1) q) := by
  unfold k0_pay1
  simp only [shapeCast_self]
  show FloatOps.matmul dot_S1024x4096_S4096x256_S1024x256_1_0_0_1_n_n none x0 x1 (constant (F := Ideal) S1024x256 .f32 0x00000000#32) (ix2 p q)
      * broadcastTo S1024x256 x2 broadcasts_S1024x1_S1024x256 (ix2 p q)
      * broadcastTo S1024x256 x3 broadcasts_S1x256_S1024x256 (ix2 p q) = _
  rw [Cert.Bridge.matmul_zero_plain dot_S1024x4096_S4096x256_S1024x256_1_0_0_1_n_n rfl rfl rfl rfl rfl rfl,
    Rank2.bcastCol_apply, Rank2.bcastRow_apply]

/-- When the four blocks are, at the entries the value reads, rows of x, columns of w and the two reciprocal clamped norms at row P and
    column Q, the stored value at (p, q) is the similarity's entry at (P, Q). -/
theorem value_eq_entry (x0 : FVec Ideal S1024x4096 .bf16) (x1 : FVec Ideal S4096x256 .bf16) (x2 : FVec Ideal S1024x1 .f32)
    (x3 : FVec Ideal S1x256 .f32) (p : Fin 1024) (q : Fin 256)
    (x : (⟨2, ![4096, 4096]⟩ : Shape).Idx → EReal) (w : (⟨2, ![4096, 32768]⟩ : Shape).Idx → EReal)
    (sx : (⟨1, ![4096]⟩ : Shape).Idx → EReal) (sw : (⟨1, ![32768]⟩ : Shape).Idx → EReal) (P : Fin 4096) (Q : Fin 32768)
    (hl : ∀ k : Fin 4096, x0 (ix2 p k) = x (ix2 P k)) (hr : ∀ k : Fin 4096, x1 (ix2 k q) = w (ix2 k Q))
    (ha : x2 (ix2 p (0 : Fin 1)) = Ideal.div 1 (max (Ideal.sqrt (sx (ix1 P))) Cert.Cosine.clamp))
    (hb : x3 (ix2 (0 : Fin 1) q) = Ideal.div 1 (max (Ideal.sqrt (sw (ix1 Q))) Cert.Cosine.clamp)) :
    k0_pay1 (F := Ideal) x0 x1 x2 x3 (ix2 p q) = Cert.Cosine.entry x w sx sw P Q := by
  rw [value_apply, ha, hb]
  unfold Cert.Cosine.entry
  rw [Finset.sum_congr rfl fun k _ => by rw [hl k, hr k]]

end Cert.KernelIdeal.Tile

end
-- ==== Proof.TileArray.lean ====
/-
  From the blocks the grid points write to the whole result array.

  Grid point t = 128·i + j (0 ≤ i < 4, 0 ≤ j < 128) reads rows 1024·i … 1024·i + 1023 of x and of the column of reciprocal
  row norms, columns 256·j … 256·j + 255 of w and of the row of reciprocal column norms, and writes the [1024, 256] block at
  block position (i, j) of the result. Entry (p, q) of what it writes is the similarity at (1024·i + p, 256·j + q); the 512
  blocks tile the [4096, 32768] array (the block holding (P, Q) is the one at (P / 1024, Q / 256)), so after the run the array
  IS the similarity array.
-/
import proofs.«172707_j54425825575210_2_alg».proof.Proof.Gen.KernelIdeal.Value
import proofs.«172707_j54425825575210_2_alg».proof.Proof.KernelHost
import proofs.«172707_j54425825575210_2_alg».proof.Proof.TileValue
import proofs.«172707_j54425825575210_2_alg».proof.Proof.CosineSpec
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Entry Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array on core c: the similarity array of the arguments and their sums of squares. -/
abbrev result (c : Dev nD) : S4096x32768.Idx → EReal :=
  Cert.Cosine.similarity (argX m c) (argW m c) (rowSq m c) (colSq m c)

/-- The windows' block positions at point t: the output's is (t / 128, t % 128); x and the column of reciprocal row norms follow
    its first coordinate, w and the row of reciprocal column norms its second. Decided over the 512 points. -/
theorem block_positions : ∀ t : Fin cfg0.N,
    win0_4.index t (0 : Fin 2) = t.val / 128 ∧ win0_4.index t (1 : Fin 2) = t.val % 128
    ∧ win0_0.index t (0 : Fin 2) = t.val / 128 ∧ win0_0.index t (1 : Fin 2) = 0
    ∧ win0_1.index t (0 : Fin 2) = 0 ∧ win0_1.index t (1 : Fin 2) = t.val % 128
    ∧ win0_2.index t (0 : Fin 2) = t.val / 128 ∧ win0_2.index t (1 : Fin 2) = 0
    ∧ win0_3.index t (0 : Fin 2) = 0 ∧ win0_3.index t (1 : Fin 2) = t.val % 128 :=
  (by decide +kernel : ∀ t : Fin grid0.N, _)

/-- The block of x at point t, at y, is the left operand's array at row 1024·(t / 128) + y₀ and column y₁. -/
theorem lhsBlock_apply (c : Dev nD) (t : Fin cfg0.N) (y : S1024x4096.Idx) (K : S4096x4096.Idx)
    (h0 : (K 0).val = t.val / 128 * 1024 + (y 0).val) (h1 : (K 1).val = (y 1).val) :
    (iblk m c 0 t : FVec Ideal S1024x4096 .bf16) y = (V m c main_v16 : S4096x4096.Idx → EReal) K := by
  obtain ⟨-, -, e0, e1, -⟩ := block_positions t
  unfold iblk
  rw [View.read_apply]
  show V m c main_v16 _ = V m c main_v16 _
  refine congrArg (V m c main_v16) ?_
  funext a; apply Fin.ext
  match a with
  | ⟨0, _⟩ => show win0_0.index t (0 : Fin 2) * 1024 + 1 * (y 0).val = (K 0).val; rw [e0, h0]; omega
  | ⟨1, _⟩ => show win0_0.index t (1 : Fin 2) * 4096 + 1 * (y 1).val = (K 1).val; rw [e1, h1]; omega

/-- The block of w at point t, at y, is the right operand's array at row y₀ and column 256·(t % 128) + y₁. -/
theorem rhsBlock_apply (c : Dev nD) (t : Fin cfg0.N) (y : S4096x256.Idx) (K : S4096x32768.Idx)
    (h0 : (K 0).val = (y 0).val) (h1 : (K 1).val = t.val % 128 * 256 + (y 1).val) :
    (iblk m c 1 t : FVec Ideal S4096x256 .bf16) y = (V m c main_v17 : S4096x32768.Idx → EReal) K := by
  obtain ⟨-, -, -, -, e0, e1, -⟩ := block_positions t
  unfold iblk
  rw [View.read_apply]
  show V m c main_v17 _ = V m c main_v17 _
  refine congrArg (V m c main_v17) ?_
  funext a; apply Fin.ext
  match a with
  | ⟨0, _⟩ => show win0_1.index t (0 : Fin 2) * 4096 + 1 * (y 0).val = (K 0).val; rw [e0, h0]; omega
  | ⟨1, _⟩ => show win0_1.index t (1 : Fin 2) * 256 + 1 * (y 1).val = (K 1).val; rw [e1, h1]; omega

/-- The block of the column of reciprocal row norms at point t, at y, is the column at row 1024·(t / 128) + y₀. -/
theorem invRowBlock_apply (c : Dev nD) (t : Fin cfg0.N) (y : S1024x1.Idx) (K : S4096x1.Idx)
    (h0 : (K 0).val = t.val / 128 * 1024 + (y 0).val) (h1 : (K 1).val = (y 1).val) :
    (iblk m c 2 t : FVec Ideal S1024x1 .f32) y = (V m c main_v7 : S4096x1.Idx → EReal) K := by
  obtain ⟨-, -, -, -, -, -, e0, e1, -⟩ := block_positions t
  unfold iblk
  rw [View.read_apply]
  show V m c main_v7 _ = V m c main_v7 _
  refine congrArg (V m c main_v7) ?_
  funext a; apply Fin.ext
  match a with
  | ⟨0, _⟩ => show win0_2.index t (0 : Fin 2) * 1024 + 1 * (y 0).val = (K 0).val; rw [e0, h0]; omega
  | ⟨1, _⟩ => show win0_2.index t (1 : Fin 2) * 1 + 1 * (y 1).val = (K 1).val; rw [e1, h1]; omega

/-- The block of the row of reciprocal column norms at point t, at y, is the row at column 256·(t % 128) + y₁. -/
theorem invColBlock_apply (c : Dev nD) (t : Fin cfg0.N) (y : S1x256.Idx) (K : S1x32768.Idx)
    (h0 : (K 0).val = (y 0).val) (h1 : (K 1).val = t.val % 128 * 256 + (y 1).val) :
    (iblk m c 3 t : FVec Ideal S1x256 .f32) y = (V m c main_v15 : S1x32768.Idx → EReal) K := by
  obtain ⟨-, -, -, -, -, -, -, -, e0, e1⟩ := block_positions t
  unfold iblk
  rw [View.read_apply]
  show V m c main_v15 _ = V m c main_v15 _
  refine congrArg (V m c main_v15) ?_
  funext a; apply Fin.ext
  match a with
  | ⟨0, _⟩ => show win0_3.index t (0 : Fin 2) * 1 + 1 * (y 0).val = (K 0).val; rw [e0, h0]; omega
  | ⟨1, _⟩ => show win0_3.index t (1 : Fin 2) * 256 + 1 * (y 1).val = (K 1).val; rw [e1, h1]; omega

/-- What the body stores at point t, at (p, q) of the block, is the similarity at (1024·(t / 128) + p, 256·(t % 128) + q). -/
theorem tile_eq (c : Dev nD) (t : Fin cfg0.N) (j : S1024x256.Idx) (I : S4096x32768.Idx)
    (h0 : (I 0).val = t.val / 128 * 1024 + (j 0).val) (h1 : (I 1).val = t.val % 128 * 256 + (j 1).val) :
    k0_pay1 (F := Ideal) (iblk m c 0 t) (iblk m c 1 t) (iblk m c 2 t) (iblk m c 3 t) j = result m c I := by
  obtain ⟨p, q, rfl⟩ : ∃ (p : Fin 1024) (q : Fin 256), j = ix2 p q := ⟨j 0, j 1, eq_ix2 j⟩
  obtain ⟨P, Q, rfl⟩ : ∃ (P : Fin 4096) (Q : Fin 32768), I = ix2 P Q := ⟨I 0, I 1, eq_ix2 I⟩
  have hP : P.val = t.val / 128 * 1024 + p.val := h0
  have hQ : Q.val = t.val % 128 * 256 + q.val := h1
  show k0_pay1 (F := Ideal) (iblk m c 0 t) (iblk m c 1 t) (iblk m c 2 t) (iblk m c 3 t) (ix2 p q)
    = Cert.Cosine.entry (argX m c) (argW m c) (rowSq m c) (colSq m c) P Q
  refine Tile.value_eq_entry (iblk m c 0 t) (iblk m c 1 t) (iblk m c 2 t) (iblk m c 3 t) p q
    (argX m c) (argW m c) (rowSq m c) (colSq m c) P Q ?_ ?_ ?_ ?_
  · intro k
    exact (lhsBlock_apply m c t (ix2 p k) (ix2 P k) hP rfl).trans (lhs_apply m c P k)
  · intro k
    exact (rhsBlock_apply m c t (ix2 k q) (ix2 k Q) rfl hQ).trans (rhs_apply m c k Q)
  · exact (invRowBlock_apply m c t (ix2 p (0 : Fin 1)) (ix2 P (0 : Fin 1)) hP rfl).trans (invRow_apply m c P)
  · exact (invColBlock_apply m c t (ix2 (0 : Fin 1) q) (ix2 (0 : Fin 1) Q) rfl hQ).trans (invCol_apply m c Q)

/-- WHAT POINT t WRITES BACK is block t of the result array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero_offsets]
  simp only [View.ld_unit_zero (S := S1024x4096) zero_offsets, View.ld_unit_zero (S := S4096x256) zero_offsets,
    View.ld_unit_zero (S := S1024x1) zero_offsets, View.ld_unit_zero (S := S1x256) zero_offsets]
  obtain ⟨e0, e1, -⟩ := block_positions t
  funext j
  show k0_pay1 (F := Ideal) (iblk m c 0 t) (iblk m c 1 t) (iblk m c 2 t) (iblk m c 3 t) j
    = result m c (((cfg0.win 4).blk t).view.emb j)
  refine tile_eq m c t j _ ?_ ?_
  · show win0_4.index t (0 : Fin 2) * 1024 + 1 * (j 0).val = t.val / 128 * 1024 + (j 0).val
    rw [e0]; omega
  · show win0_4.index t (1 : Fin 2) * 256 + 1 * (j 1).val = t.val % 128 * 256 + (j 1).val
    rw [e1]; omega

/-- An index of the array is in point t's block iff each coordinate is in the block's range on its axis. -/
theorem mem_block (t : Fin cfg0.N) (I : S4096x32768.Idx) :
    I ∈ ((cfg0.win 4).blk t).view.set ↔ ∀ a : Fin 2, win0_4.index t a * S1024x256.size a ≤ (I a).val
      ∧ (I a).val < win0_4.index t a * S1024x256.size a + S1024x256.size a := by
  show I ∈ ((View.whole main_v18).slice (win0_4.rect t)).set ↔ _
  rw [View.set_slice_whole, Rect.mem_set_unit]
  exact Iff.rfl

/-- Every index (P, Q) of the array is in the block of the point 128·(P / 1024) + Q / 256, which writes back. -/
theorem covered (I : S4096x32768.Idx) :
    ∃ t : Fin cfg0.N, (cfg0.win 4).flush t = true ∧ I ∈ ((cfg0.win 4).blk t).view.set := by
  have hI0 : (I 0).val < 4096 := (I 0).isLt
  have hI1 : (I 1).val < 32768 := (I 1).isLt
  have hN : cfg0.N = 512 := N_0
  have hlt : (I 0).val / 1024 * 128 + (I 1).val / 256 < cfg0.N := by rw [hN]; omega
  obtain ⟨e0, e1, -⟩ := block_positions ⟨(I 0).val / 1024 * 128 + (I 1).val / 256, hlt⟩
  refine ⟨⟨(I 0).val / 1024 * 128 + (I 1).val / 256, hlt⟩, flush0_4 _, ?_⟩
  rw [mem_block]
  intro a
  match a with
  | ⟨0, _⟩ =>
    show win0_4.index ⟨(I 0).val / 1024 * 128 + (I 1).val / 256, hlt⟩ (0 : Fin 2) * 1024 ≤ (I 0).val
      ∧ (I 0).val < win0_4.index ⟨(I 0).val / 1024 * 128 + (I 1).val / 256, hlt⟩ (0 : Fin 2) * 1024 + 1024
    rw [e0]
    show ((I 0).val / 1024 * 128 + (I 1).val / 256) / 128 * 1024 ≤ (I 0).val
      ∧ (I 0).val < ((I 0).val / 1024 * 128 + (I 1).val / 256) / 128 * 1024 + 1024
    omega
  | ⟨1, _⟩ =>
    show win0_4.index ⟨(I 0).val / 1024 * 128 + (I 1).val / 256, hlt⟩ (1 : Fin 2) * 256 ≤ (I 1).val
      ∧ (I 1).val < win0_4.index ⟨(I 0).val / 1024 * 128 + (I 1).val / 256, hlt⟩ (1 : Fin 2) * 256 + 256
    rw [e1]
    show ((I 0).val / 1024 * 128 + (I 1).val / 256) % 128 * 256 ≤ (I 1).val
      ∧ (I 1).val < ((I 0).val / 1024 * 128 + (I 1).val / 256) % 128 * 256 + 256
    omega

/-- THE ARRAY after the run is the similarity array. -/
theorem final (c : Dev nD) : (dats m 0 c).arrAt 4 cfg0.N = result m c :=
  (dats m 0 c).arrAt_eq_of_cover 4 (result m c) (fun t _ => flushed_eq m c t) covered

/-- The kernel's run, read: the result array at the similarity array, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks (F := Ideal) m ρ)

end Cert.KernelIdeal.Blocks

end
-- ==== Proof.RefSide.lean ====
/-
  The reference's result term is the cosine similarity array.

  Read at (P, Q): the quotient's numerator is the host matrix product, Σ_k x(P, k) · w(k, Q); its denominator is the product of a
  column broadcast of max(√(row sum of squares), e) and a row broadcast of max(√(column sum of squares), e), so at (P, Q) it
  is a(P) · b(Q). Dividing by a(P) · b(Q) is multiplying by 1 / a(P) and by 1 / b(Q), the clamp being positive.
-/
import proofs.«172707_j54425825575210_2_alg».proof.ReferenceIdeal
import proofs.«172707_j54425825575210_2_alg».proof.Proof.Gen.ReferenceIdeal
import proofs.«172707_j54425825575210_2_alg».proof.Proof.CosineSpec
import proofs.«172707_j54425825575210_2_alg».proof.Proof.LibPlainDot
import proofs.«172707_j54425825575210_2_alg».proof.Proof.LibBroadcastInDim2
import Idealize.ShloMosaic.Lib.ValueIdx
import Idealize.ShloMosaic.Lib.IdealHost

noncomputable section

open scoped BigOperators

namespace Cert.ReferenceIdeal.Bridge

open Cert.ReferenceIdeal Cert.ReferenceIdeal.Gen Idealize.ShloMosaic Idealize.ShloMosaic.ValueIdx

/-- The sums of squares of the rows of x, as the reference's @norm computes them. -/
abbrev rowSq (x : FVec Ideal S4096x4096 .f32) : FVec Ideal S4096 .f32 :=
  Host.reduceAdd (F := Ideal) (mulf x x) (constant (F := Ideal) S_ .f32 0x00000000#32) reducesTo_S4096x4096_S4096_d1 h_S_

/-- The sums of squares of the columns of w, as the reference's @norm_0 computes them. -/
abbrev colSq (w : FVec Ideal S4096x32768 .f32) : FVec Ideal S32768 .f32 :=
  Host.reduceAdd (F := Ideal) (mulf w w) (constant (F := Ideal) S_ .f32 0x00000000#32) reducesTo_S4096x32768_S32768_d0 h_S_

/-- The reference's term, index by index, is the similarity array of x, w and their sums of squares. -/
theorem result_eq (x : FVec Ideal S4096x4096 .f32) (w : FVec Ideal S4096x32768 .f32) :
    Host.divf (F := Ideal) (Host.dotGeneral (F := Ideal) dot_S4096x4096_S4096x32768_S4096x32768_1_0_0_1_n_n none x w)
      (mulf (broadcastInDim S4096x32768 ![0, 1] bcast_S4096x1_S4096x32768_0_1 (broadcastInDim S4096x1 ![0] bcast_S4096_S4096x1_0
          (maximumf (Host.sqrt (F := Ideal) (rowSq x)) (broadcastInDim S4096 ![] bcast_S_S4096 (constant (F := Ideal) S_ .f32 0x322BCC77#32)))))
        (broadcastInDim S4096x32768 ![0, 1] bcast_S1x32768_S4096x32768_0_1 (broadcastInDim S1x32768 ![1] bcast_S32768_S1x32768_1
          (maximumf (Host.sqrt (F := Ideal) (colSq w)) (broadcastInDim S32768 ![] bcast_S_S32768 (constant (F := Ideal) S_ .f32 0x322BCC77#32))))))
      = Cert.Cosine.similarity x w (rowSq x) (colSq w) := by
  funext I
  obtain ⟨P, Q, rfl⟩ : ∃ (P : Fin 4096) (Q : Fin 32768), I = ix2 P Q := ⟨I 0, I 1, eq_ix2 I⟩
  rw [Cert.Cosine.similarity_apply, Cert.Cosine.entry_eq_quotient, hostDivf_apply, mulf_apply]
  simp only [Host.dotGeneral]
  rw [Cert.Bridge.dotGeneral_plain dot_S4096x4096_S4096x32768_S4096x32768_1_0_0_1_n_n rfl rfl rfl rfl rfl rfl]
  rw [BroadcastInDim2.colToMat_apply, BroadcastInDim2.vecToCol_apply, BroadcastInDim2.rowToMat_apply,
    BroadcastInDim2.vecToRow_apply]
  rw [maximumf_apply, maximumf_apply, broadcastInDim_scalar_apply, broadcastInDim_scalar_apply,
    Cert.Cosine.hostSqrt_apply, Cert.Cosine.hostSqrt_apply, constant_apply]

end Cert.ReferenceIdeal.Bridge

end
-- ==== Proof.lean ====
/- The proof of `Cert.Claim`: a cosine-similarity kernel against its jnp reference.

   Both programs compute, for every row P of x and column Q of w, the dot product d(P, Q) = Σ_k x(P, k) · w(k, Q) and the two
   clamped norms a(P) = max(√Σ_k x(P, k)², e), b(Q) = max(√Σ_k w(k, Q)², e). The kernel's host code forms 1 / a and 1 / b,
   rounds x and w to bf16 (the identity on the extended reals), and a [4, 128] grid of [1024, 256] blocks computes
   d · (1 / a) · (1 / b) with one matrix product per block; the reference computes d / (a · b). Because the clamp e is positive,
   a and b are never zero and the two are equal for EVERY extended-real input (Proof/LibCosineLaw.lean): the precondition is not used.
   The three frames are the generated ones; the ideal pass rewrote nothing, so `preserves` is `True`. -/
import proofs.«172707_j54425825575210_2_alg».proof.Defs
import proofs.«172707_j54425825575210_2_alg».proof.Proof.Gen.Kernel
import proofs.«172707_j54425825575210_2_alg».proof.Proof.Gen.Kernel.Frame
import proofs.«172707_j54425825575210_2_alg».proof.Proof.Gen.KernelIdeal
import proofs.«172707_j54425825575210_2_alg».proof.Proof.Gen.KernelIdeal.Frame
import proofs.«172707_j54425825575210_2_alg».proof.Proof.Gen.KernelIdeal.Value
import proofs.«172707_j54425825575210_2_alg».proof.Proof.Gen.ReferenceIdeal
import proofs.«172707_j54425825575210_2_alg».proof.Proof.Gen.ReferenceIdeal.Run
import proofs.«172707_j54425825575210_2_alg».proof.Proof.Gen.Pre_finite_inputs
import proofs.«172707_j54425825575210_2_alg».proof.Proof.TileArray
import proofs.«172707_j54425825575210_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the similarity array of the (agreeing) arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Bridge.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
